-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x224x224 : Shape := ⟨4, ![64, 3, 224, 224]⟩
abbrev S_ : Shape := ⟨0, ![]⟩

class Facts : Prop where
  bcast_S_S64x3x224x224 : S_.BroadcastsInDim S64x3x224x224 (![] : Fin 0 → Fin S64x3x224x224.rank)
  reducesTo_S64x3x224x224_S_d0_1_2_3 : S64x3x224x224.ReducesTo [0, 1, 2, 3] S_
  h_S_ : 0 < S_.numel

variable [Facts]

def fn {F : FTy → Type} [FloatOps F] (main_arg0 : FVec F S64x3x224x224 .f32) (main_arg1 : FVec F S64x3x224x224 .f32) : IVec S_ 1 :=
  let main_v0 : FVec F S64x3x224x224 .f32 := Host.absf main_arg0
  let main_cst : FVec F S_ .f32 := constant S_ .f32 0x7F800000#32
  let main_v1 : FVec F S64x3x224x224 .f32 := broadcastInDim S64x3x224x224 ![] bcast_S_S64x3x224x224 main_cst
  let main_v2 : IVec S64x3x224x224 1 := cmpf .olt main_v0 main_v1
  let main_c : IVec S_ 1 := constantI S_ 1 1#1
  let main_v3 : IVec S_ 1 := (fun x v => Host.reduce IntOp.andi x v reducesTo_S64x3x224x224_S_d0_1_2_3 h_S_) main_v2 main_c
  let main_v4 : FVec F S64x3x224x224 .f32 := Host.absf main_arg1
  let main_cst_0 : FVec F S_ .f32 := constant S_ .f32 0x7F800000#32
  let main_v5 : FVec F S64x3x224x224 .f32 := broadcastInDim S64x3x224x224 ![] bcast_S_S64x3x224x224 main_cst_0
  let main_v6 : IVec S64x3x224x224 1 := cmpf .olt main_v4 main_v5
  let main_c_1 : IVec S_ 1 := constantI S_ 1 1#1
  let main_v7 : IVec S_ 1 := (fun x v => Host.reduce IntOp.andi x v reducesTo_S64x3x224x224_S_d0_1_2_3 h_S_) main_v6 main_c_1
  let main_v8 : IVec S_ 1 := andi main_v3 main_v7
  main_v8
-- ==== Kernel.lean ====
abbrev S64x3x224x224 : Shape := ⟨4, ![64, 3, 224, 224]⟩
abbrev S64x150528 : Shape := ⟨2, ![64, 150528]⟩
abbrev S64x1 : Shape := ⟨2, ![64, 1]⟩
abbrev S64 : Shape := ⟨1, ![64]⟩
abbrev S128 : Shape := ⟨1, ![128]⟩
abbrev S_ : Shape := ⟨0, ![]⟩
abbrev S1 : Shape := ⟨1, ![1]⟩
abbrev S16x150528 : Shape := ⟨2, ![16, 150528]⟩
abbrev S16x1 : Shape := ⟨2, ![16, 1]⟩
abbrev S16 : Shape := ⟨1, ![16]⟩

abbrev nBuf : Space → Nat
  | .hbm => 55
  | .vmem => 8
  | .smem => 0
  | _ => 0

abbrev bufTy : (tb : Table) → Fin (tcTables nBuf tb) → BufTy
  | .hbm, ⟨0, _⟩ => ⟨S64x3x224x224, .f32⟩
  | .hbm, ⟨1, _⟩ => ⟨S64x3x224x224, .f32⟩
  | .hbm, ⟨2, _⟩ => ⟨S64x150528, .f32⟩
  | .hbm, ⟨3, _⟩ => ⟨S64x150528, .f32⟩
  | .hbm, ⟨4, _⟩ => ⟨S64x1, .f32⟩
  | .hbm, ⟨5, _⟩ => ⟨S64x1, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i32⟩
  | .hbm, ⟨14, _⟩ => ⟨S_, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S16x150528, .f32⟩
  | .local _ .vmem, ⟨1, _⟩ => ⟨S16x150528, .f32⟩
  | .local _ .vmem, ⟨2, _⟩ => ⟨S16x150528, .f32⟩
  | .local _ .vmem, ⟨3, _⟩ => ⟨S16x150528, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_cst : Ref sig .tc := ⟨.hbm, 9, rfl⟩
abbrev main_call0_v6 : Ref sig .tc := ⟨.hbm, 10, rfl⟩
abbrev main_call0_cst_0 : Ref sig .tc := ⟨.hbm, 11, rfl⟩
abbrev main_call0_v7 : Ref sig .tc := ⟨.hbm, 12, rfl⟩
abbrev main_call0_c : Ref sig .tc := ⟨.hbm, 13, rfl⟩
abbrev main_call0_call0_call0_cst : Ref sig .tc := ⟨.hbm, 14, rfl⟩
abbrev main_call0_call0_call0_v0 : Ref sig .tc := ⟨.hbm, 15, rfl⟩
abbrev main_call0_call0_call0_v1 : Ref sig .tc := ⟨.hbm, 16, rfl⟩
abbrev main_call0_call0_call0_cst_0 : Ref sig .tc := ⟨.hbm, 17, rfl⟩
abbrev main_call0_call0_call0_v2 : Ref sig .tc := ⟨.hbm, 18, rfl⟩
abbrev main_call0_call0_call0_v3 : Ref sig .tc := ⟨.hbm, 19, rfl⟩
abbrev main_call0_call0_call0_v4 : Ref sig .tc := ⟨.hbm, 20, rfl⟩
abbrev main_call0_call0_call0_v5 : Ref sig .tc := ⟨.hbm, 21, rfl⟩
abbrev main_call0_call0_call0_v6 : Ref sig .tc := ⟨.hbm, 22, rfl⟩
abbrev main_call0_call0_call0_v7 : Ref sig .tc := ⟨.hbm, 23, rfl⟩
abbrev main_call0_call0_call0_cst_1 : Ref sig .tc := ⟨.hbm, 24, rfl⟩
abbrev main_call0_call0_call0_v8 : Ref sig .tc := ⟨.hbm, 25, rfl⟩
abbrev main_call0_call0_call0_cst_2 : Ref sig .tc := ⟨.hbm, 26, rfl⟩
abbrev main_call0_call0_call0_v9 : Ref sig .tc := ⟨.hbm, 27, rfl⟩
abbrev main_call0_call0_call0_v10 : Ref sig .tc := ⟨.hbm, 28, rfl⟩
abbrev main_call0_call0_call0_cst_3 : Ref sig .tc := ⟨.hbm, 29, rfl⟩
abbrev main_call0_call0_call0_v11 : Ref sig .tc := ⟨.hbm, 30, rfl⟩
abbrev main_call0_call0_call0_cst_4 : Ref sig .tc := ⟨.hbm, 31, rfl⟩
abbrev main_call0_call0_call0_call0_v0 : Ref sig .tc := ⟨.hbm, 32, rfl⟩
abbrev main_call0_call0_v0 : Ref sig .tc := ⟨.hbm, 33, rfl⟩
abbrev main_call0_v8 : Ref sig .tc := ⟨.hbm, 34, rfl⟩
abbrev main_call0_cst_1 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst_2 : Ref sig .tc := ⟨.hbm, 42, rfl⟩
abbrev main_call0_v15 : Ref sig .tc := ⟨.hbm, 43, rfl⟩
abbrev main_call0_v16 : Ref sig .tc := ⟨.hbm, 44, rfl⟩
abbrev main_call0_v17 : Ref sig .tc := ⟨.hbm, 45, rfl⟩
abbrev main_call0_v18 : Ref sig .tc := ⟨.hbm, 46, rfl⟩
abbrev main_call0_v19 : Ref sig .tc := ⟨.hbm, 47, rfl⟩
abbrev main_call0_v20 : Ref sig .tc := ⟨.hbm, 48, rfl⟩
abbrev main_call0_cst_3 : Ref sig .tc := ⟨.hbm, 49, rfl⟩
abbrev main_call0_v21 : Ref sig .tc := ⟨.hbm, 50, rfl⟩
abbrev main_call0_v22 : Ref sig .tc := ⟨.hbm, 51, rfl⟩
abbrev main_call0_v23 : Ref sig .tc := ⟨.hbm, 52, rfl⟩
abbrev main_call0_v24 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x150528 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x150528 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x3x224x224_S64x150528 : S64x3x224x224.ShapeCasts S64x150528
  shapeCasts_S64x1_S64 : S64x1.ShapeCasts S64
  concatenates_S64_S64_S128_d0 : Shape.Concatenates [S64, S64] S128 0
  reducesTo_S128_S_d0 : S128.ReducesTo [0] S_
  h_S_ : 0 < S_.numel
  bcast_S_S1 : S_.BroadcastsInDim S1 (![] : Fin 0 → Fin S1.rank)
  bcast_S1_S128_0 : S1.BroadcastsInDim S128 (![0] : Fin 1 → Fin S128.rank)
  bcast_S_S64 : S_.BroadcastsInDim S64 (![] : Fin 0 → Fin S64.rank)
  reducesTo_S64_S_d0 : S64.ReducesTo [0] S_
  inb_S16x150528_S16x150528_0_0 : ∀ a, (![0, 0] : Fin 2 → Nat) a + S16x150528.size a ≤ S16x150528.size a
  h_S16x150528 : 0 < S16x150528.numel
  shapeCasts_S16x150528_S16x150528 : S16x150528.ShapeCasts S16x150528
  reduces_S16x150528_S16 : S16x150528.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x150528.size a ≤ S64x150528.size a
  hwx0_0 : ∀ i : grid0.Coords, EltTy.bits .f32 = 32 ∨ (Rect.block (s := S64x150528) S16x150528.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x150528.size a ≤ S64x150528.size a
  hwx0_1 : ∀ i : grid0.Coords, EltTy.bits .f32 = 32 ∨ (Rect.block (s := S64x150528) S16x150528.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S64x1.size a
  hwx0_2 : ∀ i : grid0.Coords, EltTy.bits .f32 = 32 ∨ (Rect.block (s := S64x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S64x1.size a
  hwx0_3 : ∀ i : grid0.Coords, EltTy.bits .f32 = 32 ∨ (Rect.block (s := S64x1) S16x1.size (cc0_transform_3 i) (hinb0_3 i)).WholeWords (EltTy.packing .f32)

variable [Facts₀]

abbrev win0_0 : Pipeline.Window sig grid0 :=
  Pipeline.Window.ofSpec (Memref.whole main_call0_v0) S16x150528.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S16x150528.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_0) S16x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_1) S16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x224x224 : Shape := ⟨4, ![64, 3, 224, 224]⟩
abbrev S_ : Shape := ⟨0, ![]⟩
abbrev S64 : Shape := ⟨1, ![64]⟩
abbrev S128 : Shape := ⟨1, ![128]⟩
abbrev S1 : Shape := ⟨1, ![1]⟩

abbrev nBuf : Space → Nat
  | .hbm => 57
  | .vmem => 0
  | .smem => 0
  | _ => 0

abbrev bufTy : (tb : Table) → Fin (tcTables nBuf tb) → BufTy
  | .hbm, ⟨0, _⟩ => ⟨S64x3x224x224, .f32⟩
  | .hbm, ⟨1, _⟩ => ⟨S64x3x224x224, .f32⟩
  | .hbm, ⟨2, _⟩ => ⟨S64x3x224x224, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S64x3x224x224, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_c : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_cst_0 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_cst_1 : Ref sig .tc := ⟨.hbm, 26, rfl⟩
abbrev main_call0_call0_v8 : Ref sig .tc := ⟨.hbm, 27, rfl⟩
abbrev main_call0_call0_cst_2 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_cst_3 : Ref sig .tc := ⟨.hbm, 31, rfl⟩
abbrev main_call0_call0_v11 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_v0 : Ref sig .tc := ⟨.hbm, 35, rfl⟩
abbrev main_v9 : Ref sig .tc := ⟨.hbm, 36, rfl⟩
abbrev main_cst_3 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩

abbrev nD : Nat := 1
abbrev τ : Topo := Topo.v7x

variable {F : FTy → Type} [FloatOps F]

class Facts₀ : Prop where
  reducesTo_S64x3x224x224_S64_d1_2_3 : S64x3x224x224.ReducesTo [1, 2, 3] S64
  h_S_ : 0 < S_.numel
  concatenates_S64_S64_S128_d0 : Shape.Concatenates [S64, S64] S128 0
  reducesTo_S128_S_d0 : S128.ReducesTo [0] S_
  bcast_S_S1 : S_.BroadcastsInDim S1 (![] : Fin 0 → Fin S1.rank)
  bcast_S1_S128_0 : S1.BroadcastsInDim S128 (![0] : Fin 1 → Fin S128.rank)
  bcast_S_S64 : S_.BroadcastsInDim S64 (![] : Fin 0 → Fin S64.rank)
  reducesTo_S64_S_d0 : S64.ReducesTo [0] S_

variable [Facts₀]

class Facts : Prop extends Facts₀ where

variable [Facts]
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.KernelNorm.lean ====
/-
  The kernel body's arithmetic at an index. From a loaded block `x` of 16 rows, each one image flattened to 150528
  entries, the body stores into each of its two output columns, at row `r`, the square root of the sum over the row of the
  squares: `√(∑ₖ x[r, k]²)` — the lane sum of `x · x` along the row (started from the zero accumulator, which at the
  ideal values adds nothing), laid out as a column of one entry per row, and its square root entry by entry.
-/
import proofs.«150675_j50087908606088_2_alg».proof.Proof.Gen.KernelIdeal.Skeleton
import proofs.«150675_j50087908606088_2_alg».proof.Proof.LibColumns
import Idealize.ShloMosaic.Lib.ValueIdx
import Idealize.ShloMosaic.Lib.Pipeline.Value
import Idealize.ShloMosaic.PureOps.Ideal.Laws

noncomputable section

namespace Cert.KernelIdeal.Norm

open Cert.KernelIdeal Cert.KernelIdeal.Gen Idealize.ShloMosaic Idealize.ShloMosaic.ValueIdx

/-- The index of a block's row `r` at lane `k`, as the lane sum names it: row `r` with `k` put on the summed axis. -/
theorem lift_row (r : Fin 16) (k : Fin 150528) :
    reduces_S16x150528_S16.lift (ix1 r) k = ix2 r k := by
  funext a
  apply Fin.ext
  match a with
  | ⟨0, _⟩ => rfl
  | ⟨1, _⟩ => rfl

/-- A vector of 16 entries laid out as a column, then its square root entry by entry: at row `r` the square root of entry `r`. -/
theorem sqrt_column_apply (v : FVec Ideal S16 .f32) (r : Fin 16) (u : Fin 1) :
    sqrt (shapeCast S16x1 v shapeCasts_S16_S16x1) (ix2 r u) = Ideal.sqrt (v (ix1 r)) :=
  congrArg Ideal.sqrt (shapeCast_a_a1_apply v shapeCasts_S16_S16x1 r u)

/-- The lane sum of a 16-row block from the zero accumulator: at row `r` the sum of the row's entries. -/
theorem lane_sum_apply (v : FVec Ideal S16x150528 .f32) (hφ : FKind.Formats .f32)
    (hacc : (0x00000000#32 : BitVec 32) = FKind.add.neutral .f32 hφ) (r : Fin 16) :
    multiReduction .add [1] S16 v 0x00000000#32 reduces_S16x150528_S16 hφ hacc (ix1 r) = ∑ k : Fin 150528, v (ix2 r k) := by
  refine (Ideal.multiReduction_add_single v 0x00000000#32 reduces_S16x150528_S16 hφ hacc (ix1 r)).trans ?_
  exact Finset.sum_congr rfl fun k _ => congrArg v (lift_row r k)

/-- The block times itself, entry by entry (its cast to its own shape is itself). -/
theorem square_apply (x : FVec Ideal S16x150528 .f32) (j : S16x150528.Idx) :
    mulf (shapeCast S16x150528 x shapeCasts_S16x150528_S16x150528) (shapeCast S16x150528 x shapeCasts_S16x150528_S16x150528) j
      = x j * x j := by
  rw [shapeCast_self]; rfl

/-- The square root of the sum of squares of row `r` of a 16-row block. -/
def rowNorm16 (x : FVec Ideal S16x150528 .f32) (r : Fin 16) : Ideal .f32 :=
  Ideal.sqrt (∑ k : Fin 150528, x (ix2 r k) * x (ix2 r k))

/-- What the body stores into the first output column at row `r`. -/
theorem pay1_apply (x : Vec Ideal S16x150528 .f32) (r : Fin 16) (u : Fin 1) :
    k0_pay1 (F := Ideal) x (ix2 r u) = rowNorm16 x r := by
  unfold k0_pay1 rowNorm16
  dsimp only
  refine (sqrt_column_apply _ r u).trans (congrArg Ideal.sqrt ?_)
  refine (lane_sum_apply _ _ _ r).trans ?_
  exact Finset.sum_congr rfl fun k _ => square_apply x (ix2 r k)

/-- The second output column's payload is the same function of its own block. -/
theorem pay2_apply (x : Vec Ideal S16x150528 .f32) (r : Fin 16) (u : Fin 1) :
    k0_pay2 (F := Ideal) x (ix2 r u) = rowNorm16 x r :=
  pay1_apply x r u

end Cert.KernelIdeal.Norm

end
-- ==== Proof.KernelColumns.lean ====
/-
  From the blocks the grid points write back to the two output columns as whole arrays. The grid has four points; point `t`
  stages rows `16 t … 16 t + 15` of each flattened input (all 150528 lanes of them) and writes back rows `16 t … 16 t + 15`
  of each output column, so the four blocks tile a column of 64 rows, and every row `i` of an output column ends holding
  `√(∑ₖ Y[i, k]²)` of its own input `Y` as the region finds it.
-/
import proofs.«150675_j50087908606088_2_alg».proof.Proof.Gen.KernelIdeal.Frame
import proofs.«150675_j50087908606088_2_alg».proof.Proof.KernelNorm

set_option maxRecDepth 16384

noncomputable section

namespace Cert.KernelIdeal.Columns

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The square root of the sum of squares of row `r` of a matrix of 64 rows of 150528 entries. -/
def rowNorm (Y : S64x150528.Idx → Elt Ideal .f32) (r : Fin 64) : Elt Ideal .f32 :=
  Ideal.sqrt (∑ k : Fin 150528, Y (ix2 r k) * Y (ix2 r k))

/-- The row norms as a column of one entry per row. -/
def rowNorms (Y : S64x150528.Idx → Elt Ideal .f32) : S64x1.Idx → Elt Ideal .f32 :=
  fun i => rowNorm Y ⟨(i 0).val, idx2_lt0 i⟩

/-- The printed index maps, decided over the grid: each input's block of rows moves with its output's, neither moves along
    the lanes, and there are four blocks of rows. -/
theorem idx_facts : ∀ t : Fin cfg0.N, win0_0.index t (0 : Fin 2) = win0_2.index t (0 : Fin 2)
    ∧ win0_0.index t (1 : Fin 2) = 0
    ∧ win0_1.index t (0 : Fin 2) = win0_3.index t (0 : Fin 2)
    ∧ win0_1.index t (1 : Fin 2) = 0
    ∧ win0_2.index t (1 : Fin 2) = 0
    ∧ win0_3.index t (1 : Fin 2) = 0
    ∧ win0_2.index t (0 : Fin 2) ≤ 3
    ∧ win0_3.index t (0 : Fin 2) ≤ 3 :=
  (by decide +kernel : ∀ t : Fin grid0.N, _)

/-- Every block of rows is some point's. -/
theorem idx_onto2 : ∀ q0 : Fin 4, ∃ t : Fin cfg0.N, win0_2.index t = ![q0.val, 0] :=
  (by decide +kernel : ∀ q0 : Fin 4, ∃ t : Fin grid0.N, win0_2.index t = ![q0.val, 0])
theorem idx_onto3 : ∀ q0 : Fin 4, ∃ t : Fin cfg0.N, win0_3.index t = ![q0.val, 0] :=
  (by decide +kernel : ∀ q0 : Fin 4, ∃ t : Fin grid0.N, win0_3.index t = ![q0.val, 0])

/-! ## Output window 2: the norms of the positive images -/

/-- A whole staged block `P` written back at point `t` is block `t` of an array `G` as soon as it agrees with `G` entry by
    entry (the window's blocks do not overhang the array, so nothing is cut off). -/
theorem written2_eq (t : Fin cfg0.N) (P : Vec Ideal S16x1 .f32) (G : S64x1.Idx → Elt Ideal .f32)
    (h : ∀ (p : Fin 16) (q : Fin 1), P (ix2 p q) = G (((cfg0.win 2).blk t).view.emb (ix2 p q))) :
    (cfg0.win 2).cut (grid0.coords t) P = ((cfg0.win 2).blk t).view.read (Elt Ideal) G := by
  funext j
  obtain ⟨p, q, rfl⟩ : ∃ (p : Fin 16) (q : Fin 1), j = ix2 p q := ⟨j 0, j 1, eq_ix2 j⟩
  exact h p q

/-- What point `t` writes back into the positive norms' column is block `t` of the row norms of the flattened positive images as
    the region finds them: the body's payload at a row of the point's input block, that block's row being the array's row
    `16 t + r`. -/
theorem flushed2_eq (c : Dev nD) (t : Fin cfg0.N) :
    (dats m 0 c).flushed 2 t = ((cfg0.win 2).blk t).view.read (Elt Ideal) (rowNorms (V m c main_call0_v0)) := by
  show (cfg0.win 2).cut (grid0.coords t) ((dats m 0 c).after 2 t) = _
  rw [after0_2]
  unfold out0_2
  rw [View.canon_unit_zero hz]
  simp only [View.ld_unit_zero (S := S16x150528) hz]
  obtain ⟨e0, e1, e2, e3, e4, e5, e6, e7⟩ := idx_facts t
  refine written2_eq t _ _ fun p q => ?_
  refine (Norm.pay1_apply (iblk m c 0 t) p q).trans ?_
  unfold Norm.rowNorm16 rowNorms rowNorm
  refine congrArg Ideal.sqrt (Finset.sum_congr rfl fun k _ => ?_)
  have hb : iblk m c 0 t (ix2 p k)
      = V m c main_call0_v0 (ix2 ⟨((((cfg0.win 2).blk t).view.emb (ix2 p q)) 0).val, idx2_lt0 _⟩ k) := by
    show V m c main_call0_v0 (((cfg0.win 0).blk t).view.emb (ix2 p k)) = _
    refine congrArg (V m c main_call0_v0) (funext fun a => Fin.ext ?_)
    match a with
    | ⟨0, _⟩ =>
      show win0_0.index t (0 : Fin 2) * 16 + 1 * p.val = win0_2.index t (0 : Fin 2) * 16 + 1 * p.val
      omega
    | ⟨1, _⟩ =>
      show win0_0.index t (1 : Fin 2) * 150528 + 1 * k.val = k.val
      omega
  rw [hb]

/-- An index of the column is in point `t`'s block iff each coordinate is in the block's range on its axis. -/
theorem mem_blk2 (t : Fin cfg0.N) (i : S64x1.Idx) :
    i ∈ ((cfg0.win 2).blk t).view.set ↔ ∀ a : Fin 2, win0_2.index t a * S16x1.size a ≤ (i a).val ∧ (i a).val < win0_2.index t a * S16x1.size a + S16x1.size a := by
  show i ∈ ((View.whole main_call0_v2_0).slice (win0_2.rect t)).set ↔ _
  rw [View.set_slice_whole, Rect.mem_set_unit]
  exact Iff.rfl

/-- Every row of the column is in the block of the point that holds it: row `i` in point `i / 16`'s. -/
theorem cover2 (i : S64x1.Idx) : ∃ t : Fin cfg0.N, (cfg0.win 2).flush t = true ∧ i ∈ ((cfg0.win 2).blk t).view.set := by
  have hi0 : (i 0).val < 64 := (i 0).isLt
  have hi1 : (i 1).val < 1 := (i 1).isLt
  obtain ⟨t, ht⟩ := idx_onto2 ⟨(i 0).val / 16, by omega⟩
  have q0 : win0_2.index t (0 : Fin 2) = (i 0).val / 16 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 1 ≤ (i 1).val ∧ (i 1).val < win0_2.index t (1 : Fin 2) * 1 + 1; omega

/-- The positive norms' column after the run: the row norms of the flattened positive images. -/
theorem final2 (c : Dev nD) : (dats m 0 c).arrAt 2 cfg0.N = rowNorms (V m c main_call0_v0) :=
  (dats m 0 c).arrAt_eq_of_cover 2 (rowNorms (V m c main_call0_v0)) (fun t _ => flushed2_eq m c t) cover2

/-! ## Output window 3: the norms of the negative images -/

/-- A whole staged block `P` written back at point `t` is block `t` of an array `G` as soon as it agrees with `G` entry by
    entry (the window's blocks do not overhang the array, so nothing is cut off). -/
theorem written3_eq (t : Fin cfg0.N) (P : Vec Ideal S16x1 .f32) (G : S64x1.Idx → Elt Ideal .f32)
    (h : ∀ (p : Fin 16) (q : Fin 1), P (ix2 p q) = G (((cfg0.win 3).blk t).view.emb (ix2 p q))) :
    (cfg0.win 3).cut (grid0.coords t) P = ((cfg0.win 3).blk t).view.read (Elt Ideal) G := by
  funext j
  obtain ⟨p, q, rfl⟩ : ∃ (p : Fin 16) (q : Fin 1), j = ix2 p q := ⟨j 0, j 1, eq_ix2 j⟩
  exact h p q

/-- What point `t` writes back into the negative norms' column is block `t` of the row norms of the flattened negative images as
    the region finds them: the body's payload at a row of the point's input block, that block's row being the array's row
    `16 t + r`. -/
theorem flushed3_eq (c : Dev nD) (t : Fin cfg0.N) :
    (dats m 0 c).flushed 3 t = ((cfg0.win 3).blk t).view.read (Elt Ideal) (rowNorms (V m c main_call0_v1)) := by
  show (cfg0.win 3).cut (grid0.coords t) ((dats m 0 c).after 3 t) = _
  rw [after0_3]
  unfold out0_3
  rw [View.canon_unit_zero hz]
  simp only [View.ld_unit_zero (S := S16x150528) hz]
  obtain ⟨e0, e1, e2, e3, e4, e5, e6, e7⟩ := idx_facts t
  refine written3_eq t _ _ fun p q => ?_
  refine (Norm.pay2_apply (iblk m c 1 t) p q).trans ?_
  unfold Norm.rowNorm16 rowNorms rowNorm
  refine congrArg Ideal.sqrt (Finset.sum_congr rfl fun k _ => ?_)
  have hb : iblk m c 1 t (ix2 p k)
      = V m c main_call0_v1 (ix2 ⟨((((cfg0.win 3).blk t).view.emb (ix2 p q)) 0).val, idx2_lt0 _⟩ k) := by
    show V m c main_call0_v1 (((cfg0.win 1).blk t).view.emb (ix2 p k)) = _
    refine congrArg (V m c main_call0_v1) (funext fun a => Fin.ext ?_)
    match a with
    | ⟨0, _⟩ =>
      show win0_1.index t (0 : Fin 2) * 16 + 1 * p.val = win0_3.index t (0 : Fin 2) * 16 + 1 * p.val
      omega
    | ⟨1, _⟩ =>
      show win0_1.index t (1 : Fin 2) * 150528 + 1 * k.val = k.val
      omega
  rw [hb]

/-- An index of the column is in point `t`'s block iff each coordinate is in the block's range on its axis. -/
theorem mem_blk3 (t : Fin cfg0.N) (i : S64x1.Idx) :
    i ∈ ((cfg0.win 3).blk t).view.set ↔ ∀ a : Fin 2, win0_3.index t a * S16x1.size a ≤ (i a).val ∧ (i a).val < win0_3.index t a * S16x1.size a + S16x1.size a := by
  show i ∈ ((View.whole main_call0_v2_1).slice (win0_3.rect t)).set ↔ _
  rw [View.set_slice_whole, Rect.mem_set_unit]
  exact Iff.rfl

/-- Every row of the column is in the block of the point that holds it: row `i` in point `i / 16`'s. -/
theorem cover3 (i : S64x1.Idx) : ∃ t : Fin cfg0.N, (cfg0.win 3).flush t = true ∧ i ∈ ((cfg0.win 3).blk t).view.set := by
  have hi0 : (i 0).val < 64 := (i 0).isLt
  have hi1 : (i 1).val < 1 := (i 1).isLt
  obtain ⟨t, ht⟩ := idx_onto3 ⟨(i 0).val / 16, by omega⟩
  have q0 : win0_3.index t (0 : Fin 2) = (i 0).val / 16 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 1 ≤ (i 1).val ∧ (i 1).val < win0_3.index t (1 : Fin 2) * 1 + 1; omega

/-- The negative norms' column after the run: the row norms of the flattened negative images. -/
theorem final3 (c : Dev nD) : (dats m 0 c).arrAt 3 cfg0.N = rowNorms (V m c main_call0_v1) :=
  (dats m 0 c).arrAt_eq_of_cover 3 (rowNorms (V m c main_call0_v1)) (fun t _ => flushed3_eq m c t) cover3

end Cert.KernelIdeal.Columns

end
-- ==== Proof.Loss.lean ====
/-
  What both programs do with the two vectors of per-image norms `p` (positive images) and `q` (negative images), each of
  64 entries: join them into one record of 128 entries; take its mean `μ` (the sum over 128) and its standard deviation
  `σ` (the square root of the mean squared deviation from `μ`, computed by jax's `_var` with zero degrees of freedom:
  divisor `128 − 0`, replaced by a not-a-number pattern were it not positive); with the scale `σ · 0.7`, sum
  `exp ((p − μ) / (σ · 0.7))` over the positive norms (`P`) and the same over the negative norms (`Q`); the loss is
  `−log (P / (P + Q))`.

  Kernel and reference compute the norms differently and then apply THIS function to them, operation for operation: the
  certificate proves the norms equal and never opens it.
-/
import Idealize.ShloMosaic.PureOps

noncomputable section

namespace Cert.Loss

open Idealize.ShloMosaic

abbrev V64 : Shape := ⟨1, ![64]⟩
abbrev V128 : Shape := ⟨1, ![128]⟩
abbrev V1 : Shape := ⟨1, ![1]⟩
abbrev Sc : Shape := ⟨0, ![]⟩

theorem joins : Shape.Concatenates [V64, V64] V128 0 := by decide
theorem sum128 : V128.ReducesTo [0] Sc := by decide
theorem sum64 : V64.ReducesTo [0] Sc := by decide
theorem scalar_pos : 0 < Sc.numel := by decide
theorem scalar_to_1 : Sc.BroadcastsInDim V1 (![] : Fin 0 → Fin V1.rank) := by decide
theorem one_to_128 : V1.BroadcastsInDim V128 (![0] : Fin 1 → Fin V128.rank) := by decide
theorem scalar_to_64 : Sc.BroadcastsInDim V64 (![] : Fin 0 → Fin V64.rank) := by decide

variable {F : FTy → Type} [FloatOps F]

/-- The record's mean: its sum over 128 entries, divided by 128. -/
def mean (rec : FVec F V128 .f32) : FVec F Sc .f32 :=
  Host.divf (Host.reduceAdd rec (constant Sc .f32 0x00000000#32) sum128 scalar_pos) (constant Sc .f32 0x43000000#32)

/-- The number of entries less the degrees of freedom: `128 − 0`. -/
def count : FVec F Sc .f32 :=
  subf (constant Sc .f32 0x43000000#32) (sitofp .f32 (constantI Sc 32 0#32))

/-- The record's deviations from its mean (the mean recomputed as a one-entry array and spread over the record). -/
def deviation (rec : FVec F V128 .f32) : FVec F V128 .f32 :=
  subf rec (broadcastInDim V128 ![0] one_to_128
    (Host.divf (broadcastInDim V1 ![] scalar_to_1 (Host.reduceAdd rec (constant Sc .f32 0x00000000#32) sum128 scalar_pos))
      (broadcastInDim V1 ![] scalar_to_1 (constant Sc .f32 0x43000000#32))))

/-- The record's standard deviation: the square root of the mean squared deviation. -/
def std (rec : FVec F V128 .f32) : FVec F Sc .f32 :=
  Host.sqrt (select (cmpf .ogt (count (F := F)) (constant Sc .f32 0x00000000#32))
    (Host.divf (Host.reduceAdd (mulf (deviation rec) (deviation rec)) (constant Sc .f32 0x00000000#32) sum128 scalar_pos) count)
    (id (constant Sc .f32 0x7FC00000#32)))

/-- The sum over 64 entries of `exp ((v − μ) / s)`. -/
def expSum (v : FVec F V64 .f32) (mu s : FVec F Sc .f32) : FVec F Sc .f32 :=
  Host.reduceAdd (Host.exp (Host.divf (subf v (broadcastInDim V64 ![] scalar_to_64 mu)) (broadcastInDim V64 ![] scalar_to_64 s)))
    (constant Sc .f32 0x00000000#32) sum64 scalar_pos

/-- The loss from the record, the two norm vectors, the mean and the scale. -/
def lossOf (p q : FVec F V64 .f32) (mu s : FVec F Sc .f32) : FVec F Sc .f32 :=
  Host.negf (Host.log (Host.divf (expSum p mu s) (addf (expSum p mu s) (expSum q mu s))))

/-- The loss as a function of the two vectors of norms. -/
def loss (p q : FVec F V64 .f32) : FVec F Sc .f32 :=
  lossOf p q (mean (concatenate V128 0 [⟨V64, p⟩, ⟨V64, q⟩] joins))
    (mulf (std (concatenate V128 0 [⟨V64, p⟩, ⟨V64, q⟩] joins)) (constant Sc .f32 0x3F333333#32))

end Cert.Loss

end
-- ==== Proof.KernelRun.lean ====
/-
  The kernel program's run, read. Before the region the host flattens each input `[64, 3, 224, 224]` to `[64, 150528]`
  (the same entries in row-major order); the region leaves in its two output columns the row norms of those two matrices
  (`Columns.final2`, `final3`); after the region the host reads each column `[64, 1]` as a vector of 64 entries and applies
  `Cert.Loss.loss` to the two vectors, operation for operation. So the result buffer ends at the loss of the kernel's two
  norm vectors, and the argument arrays end as launched.
-/
import proofs.«150675_j50087908606088_2_alg».proof.Proof.Gen.KernelIdeal.Frame
import proofs.«150675_j50087908606088_2_alg».proof.Proof.KernelColumns
import proofs.«150675_j50087908606088_2_alg».proof.Proof.Loss
import Idealize.ShloMosaic.Lib.StableHlo.Run
import Idealize.ShloMosaic.Lib.Pipeline.Frame

set_option maxRecDepth 16384

noncomputable section

namespace Cert.KernelIdeal.Run

open Cert.KernelIdeal Cert.KernelIdeal.Gen Idealize.ShloMosaic Idealize.ShloMosaic.TcCoe Idealize.ShloMosaic.ValueIdx
open Idealize.SL.Sem Idealize.ShloMosaic.StableHlo

section Tail

variable {F : FTy → Type} [FloatOps F]

/-- The first two host lines after the region: each output column read as a vector. -/
abbrev readOps : List (HloOp τ sig (Elt F)) :=
  [ TRef.reshape (.of main_call0_v2_0 : TRef sig ⟨S64x1, .f32⟩) (.of main_call0_v3 : TRef sig ⟨S64, .f32⟩) rfl shapeCasts_S64x1_S64,
    TRef.reshape (.of main_call0_v2_1 : TRef sig ⟨S64x1, .f32⟩) (.of main_call0_v4 : TRef sig ⟨S64, .f32⟩) rfl shapeCasts_S64x1_S64 ]

/-- The other forty-seven: the loss of the two vectors, from the record that joins them on. -/
abbrev lossOps : List (HloOp τ sig (Elt F)) :=
  [ TRef.binary (.of main_call0_v3 : TRef sig ⟨S64, .f32⟩) (.of main_call0_v4 : TRef sig ⟨S64, .f32⟩) (.of main_call0_v5 : TRef sig ⟨S128, .f32⟩) (fun a b => concatenate S128 0 [⟨S64, a⟩, ⟨S64, b⟩] concatenates_S64_S64_S128_d0),
    TRef.nullary (.of main_call0_cst : TRef sig ⟨S_, .f32⟩) (constant S_ .f32 0x00000000#32),
    TRef.binary (.of main_call0_v5 : TRef sig ⟨S128, .f32⟩) (.of main_call0_cst : TRef sig ⟨S_, .f32⟩) (.of main_call0_v6 : TRef sig ⟨S_, .f32⟩) (fun x v => Host.reduceAdd x v reducesTo_S128_S_d0 h_S_),
    TRef.nullary (.of main_call0_cst_0 : TRef sig ⟨S_, .f32⟩) (constant S_ .f32 0x43000000#32),
    TRef.binary (.of main_call0_v6 : TRef sig ⟨S_, .f32⟩) (.of main_call0_cst_0 : TRef sig ⟨S_, .f32⟩) (.of main_call0_v7 : TRef sig ⟨S_, .f32⟩) Host.divf,
    TRef.nullary (.of main_call0_c : TRef sig ⟨S_, .i32⟩) (constantI S_ 32 0#32),
    TRef.nullary (.of main_call0_call0_call0_cst : TRef sig ⟨S_, .f32⟩) (constant S_ .f32 0x00000000#32),
    TRef.binary (.of main_call0_v5 : TRef sig ⟨S128, .f32⟩) (.of main_call0_call0_call0_cst : TRef sig ⟨S_, .f32⟩) (.of main_call0_call0_call0_v0 : TRef sig ⟨S_, .f32⟩) (fun x v => Host.reduceAdd x v reducesTo_S128_S_d0 h_S_),
    TRef.unary (.of main_call0_call0_call0_v0 : TRef sig ⟨S_, .f32⟩) (.of main_call0_call0_call0_v1 : TRef sig ⟨S1, .f32⟩) (broadcastInDim S1 ![] bcast_S_S1),
    TRef.nullary (.of main_call0_call0_call0_cst_0 : TRef sig ⟨S_, .f32⟩) (constant S_ .f32 0x43000000#32),
    TRef.unary (.of main_call0_call0_call0_cst_0 : TRef sig ⟨S_, .f32⟩) (.of main_call0_call0_call0_v2 : TRef sig ⟨S1, .f32⟩) (broadcastInDim S1 ![] bcast_S_S1),
    TRef.binary (.of main_call0_call0_call0_v1 : TRef sig ⟨S1, .f32⟩) (.of main_call0_call0_call0_v2 : TRef sig ⟨S1, .f32⟩) (.of main_call0_call0_call0_v3 : TRef sig ⟨S1, .f32⟩) Host.divf,
    TRef.unary (.of main_call0_call0_call0_v3 : TRef sig ⟨S1, .f32⟩) (.of main_call0_call0_call0_v4 : TRef sig ⟨S128, .f32⟩) (broadcastInDim S128 ![0] bcast_S1_S128_0),
    TRef.binary (.of main_call0_v5 : TRef sig ⟨S128, .f32⟩) (.of main_call0_call0_call0_v4 : TRef sig ⟨S128, .f32⟩) (.of main_call0_call0_call0_v5 : TRef sig ⟨S128, .f32⟩) subf,
    TRef.binary (.of main_call0_call0_call0_v5 : TRef sig ⟨S128, .f32⟩) (.of main_call0_call0_call0_v5 : TRef sig ⟨S128, .f32⟩) (.of main_call0_call0_call0_v6 : TRef sig ⟨S128, .f32⟩) mulf,
    TRef.unary (.of main_call0_c : TRef sig ⟨S_, .i32⟩) (.of main_call0_call0_call0_v7 : TRef sig ⟨S_, .f32⟩) (sitofp .f32),
    TRef.nullary (.of main_call0_call0_call0_cst_1 : TRef sig ⟨S_, .f32⟩) (constant S_ .f32 0x43000000#32),
    TRef.binary (.of main_call0_call0_call0_cst_1 : TRef sig ⟨S_, .f32⟩) (.of main_call0_call0_call0_v7 : TRef sig ⟨S_, .f32⟩) (.of main_call0_call0_call0_v8 : TRef sig ⟨S_, .f32⟩) subf,
    TRef.nullary (.of main_call0_call0_call0_cst_2 : TRef sig ⟨S_, .f32⟩) (constant S_ .f32 0x00000000#32),
    TRef.binary (.of main_call0_call0_call0_v6 : TRef sig ⟨S128, .f32⟩) (.of main_call0_call0_call0_cst_2 : TRef sig ⟨S_, .f32⟩) (.of main_call0_call0_call0_v9 : TRef sig ⟨S_, .f32⟩) (fun x v => Host.reduceAdd x v reducesTo_S128_S_d0 h_S_),
    TRef.binary (.of main_call0_call0_call0_v9 : TRef sig ⟨S_, .f32⟩) (.of main_call0_call0_call0_v8 : TRef sig ⟨S_, .f32⟩) (.of main_call0_call0_call0_v10 : TRef sig ⟨S_, .f32⟩) Host.divf,
    TRef.nullary (.of main_call0_call0_call0_cst_3 : TRef sig ⟨S_, .f32⟩) (constant S_ .f32 0x00000000#32),
    TRef.binary (.of main_call0_call0_call0_v8 : TRef sig ⟨S_, .f32⟩) (.of main_call0_call0_call0_cst_3 : TRef sig ⟨S_, .f32⟩) (.of main_call0_call0_call0_v11 : TRef sig ⟨S_, .i1⟩) (cmpf .ogt),
    TRef.nullary (.of main_call0_call0_call0_cst_4 : TRef sig ⟨S_, .f32⟩) (constant S_ .f32 0x7FC00000#32),
    TRef.unary (.of main_call0_call0_call0_cst_4 : TRef sig ⟨S_, .f32⟩) (.of main_call0_call0_call0_call0_v0 : TRef sig ⟨S_, .f32⟩) id,
    TRef.ternary (.of main_call0_call0_call0_v11 : TRef sig ⟨S_, .i1⟩) (.of main_call0_call0_call0_v10 : TRef sig ⟨S_, .f32⟩) (.of main_call0_call0_call0_call0_v0 : TRef sig ⟨S_, .f32⟩) (.of main_call0_call0_v0 : TRef sig ⟨S_, .f32⟩) select,
    TRef.unary main_call0_call0_call0.call0.v1 (.of main_call0_v8 : TRef sig ⟨S_, .f32⟩) Host.sqrt,
    TRef.nullary (.of main_call0_cst_1 : TRef sig ⟨S_, .f32⟩) (constant S_ .f32 0x3F333333#32),
    TRef.binary main_call0_call0.v1 (.of main_call0_cst_1 : TRef sig ⟨S_, .f32⟩) (.of main_call0_v9 : TRef sig ⟨S_, .f32⟩) mulf,
    TRef.unary (.of main_call0_v7 : TRef sig ⟨S_, .f32⟩) (.of main_call0_v10 : TRef sig ⟨S64, .f32⟩) (broadcastInDim S64 ![] bcast_S_S64),
    TRef.binary (.of main_call0_v3 : TRef sig ⟨S64, .f32⟩) (.of main_call0_v10 : TRef sig ⟨S64, .f32⟩) (.of main_call0_v11 : TRef sig ⟨S64, .f32⟩) subf,
    TRef.unary (.of main_call0_v9 : TRef sig ⟨S_, .f32⟩) (.of main_call0_v12 : TRef sig ⟨S64, .f32⟩) (broadcastInDim S64 ![] bcast_S_S64),
    TRef.binary (.of main_call0_v11 : TRef sig ⟨S64, .f32⟩) (.of main_call0_v12 : TRef sig ⟨S64, .f32⟩) (.of main_call0_v13 : TRef sig ⟨S64, .f32⟩) Host.divf,
    TRef.unary (.of main_call0_v13 : TRef sig ⟨S64, .f32⟩) (.of main_call0_v14 : TRef sig ⟨S64, .f32⟩) Host.exp,
    TRef.nullary (.of main_call0_cst_2 : TRef sig ⟨S_, .f32⟩) (constant S_ .f32 0x00000000#32),
    TRef.binary (.of main_call0_v14 : TRef sig ⟨S64, .f32⟩) (.of main_call0_cst_2 : TRef sig ⟨S_, .f32⟩) (.of main_call0_v15 : TRef sig ⟨S_, .f32⟩) (fun x v => Host.reduceAdd x v reducesTo_S64_S_d0 h_S_),
    TRef.unary (.of main_call0_v7 : TRef sig ⟨S_, .f32⟩) (.of main_call0_v16 : TRef sig ⟨S64, .f32⟩) (broadcastInDim S64 ![] bcast_S_S64),
    TRef.binary (.of main_call0_v4 : TRef sig ⟨S64, .f32⟩) (.of main_call0_v16 : TRef sig ⟨S64, .f32⟩) (.of main_call0_v17 : TRef sig ⟨S64, .f32⟩) subf,
    TRef.unary (.of main_call0_v9 : TRef sig ⟨S_, .f32⟩) (.of main_call0_v18 : TRef sig ⟨S64, .f32⟩) (broadcastInDim S64 ![] bcast_S_S64),
    TRef.binary (.of main_call0_v17 : TRef sig ⟨S64, .f32⟩) (.of main_call0_v18 : TRef sig ⟨S64, .f32⟩) (.of main_call0_v19 : TRef sig ⟨S64, .f32⟩) Host.divf,
    TRef.unary (.of main_call0_v19 : TRef sig ⟨S64, .f32⟩) (.of main_call0_v20 : TRef sig ⟨S64, .f32⟩) Host.exp,
    TRef.nullary (.of main_call0_cst_3 : TRef sig ⟨S_, .f32⟩) (constant S_ .f32 0x00000000#32),
    TRef.binary (.of main_call0_v20 : TRef sig ⟨S64, .f32⟩) (.of main_call0_cst_3 : TRef sig ⟨S_, .f32⟩) (.of main_call0_v21 : TRef sig ⟨S_, .f32⟩) (fun x v => Host.reduceAdd x v reducesTo_S64_S_d0 h_S_),
    TRef.binary (.of main_call0_v15 : TRef sig ⟨S_, .f32⟩) (.of main_call0_v21 : TRef sig ⟨S_, .f32⟩) (.of main_call0_v22 : TRef sig ⟨S_, .f32⟩) addf,
    TRef.binary (.of main_call0_v15 : TRef sig ⟨S_, .f32⟩) (.of main_call0_v22 : TRef sig ⟨S_, .f32⟩) (.of main_call0_v23 : TRef sig ⟨S_, .f32⟩) Host.divf,
    TRef.unary (.of main_call0_v23 : TRef sig ⟨S_, .f32⟩) (.of main_call0_v24 : TRef sig ⟨S_, .f32⟩) Host.log,
    TRef.unary (.of main_call0_v24 : TRef sig ⟨S_, .f32⟩) (.of main_v0 : TRef sig ⟨S_, .f32⟩) Host.negf ]

theorem hostOps1_split : (hostOps1 : List (HloOp τ sig (Elt F))) = readOps ++ lossOps := rfl

/-- After the two reads the two vectors hold the columns' entries. -/
theorem pos_read_eq (W : Valuation τ sig (Elt F)) :
    after readOps W (main_call0_v3 : DevRef τ sig) = shapeCast S64 (W (main_call0_v2_0 : DevRef τ sig)) shapeCasts_S64x1_S64 := by
  after_results_simp
  rfl
theorem neg_read_eq (W : Valuation τ sig (Elt F)) :
    after readOps W (main_call0_v4 : DevRef τ sig) = shapeCast S64 (W (main_call0_v2_1 : DevRef τ sig)) shapeCasts_S64x1_S64 := by
  after_results_simp
  rfl

/-- The other lines leave the result buffer at the loss of whatever the two vectors hold. -/
theorem loss_eq (W : Valuation τ sig (Elt F)) :
    after lossOps W (main_v0 : DevRef τ sig)
      = Cert.Loss.loss (W (main_call0_v3 : DevRef τ sig)) (W (main_call0_v4 : DevRef τ sig)) := by
  after_results_simp
  rfl

/-- The host lines after the region, from any contents `W` of the buffers: the result buffer ends at the loss of the two
    output columns read as vectors. -/
theorem tail_eq (W : Valuation τ sig (Elt F)) :
    after hostOps1 W (main_v0 : DevRef τ sig)
      = Cert.Loss.loss (shapeCast S64 (W (main_call0_v2_0 : DevRef τ sig)) shapeCasts_S64x1_S64)
          (shapeCast S64 (W (main_call0_v2_1 : DevRef τ sig)) shapeCasts_S64x1_S64) := by
  rw [hostOps1_split, after_append, loss_eq, pos_read_eq, neg_read_eq]

end Tail

variable (m : (ℓ : Loc nD τ sig) → Buf (Elt Ideal) ℓ) (ρ : Dev nD → PrngReg)

/-- The per-image norms as the kernel program computes them: the input flattened to one row per image, each row's
    `√(∑ₖ ·²)` as a column, the column read as a vector. -/
def norms (x : FVec Ideal S64x3x224x224 .f32) : FVec Ideal S64 .f32 :=
  shapeCast S64 (Columns.rowNorms (shapeCast S64x150528 x shapeCasts_S64x3x224x224_S64x150528)) shapeCasts_S64x1_S64

/-- The region finds the first window's array at the positive images flattened. -/
theorem V_pos (c : Dev nD) :
    (V m c main_call0_v0 : S64x150528.Idx → Elt Ideal .f32)
      = shapeCast S64x150528 (m ((c : Thread nD τ).loc main_arg0)) shapeCasts_S64x3x224x224_S64x150528 := by
  show StableHlo.after hostOps0 (fun b => m (c, b)) (Proc.devRef .tc main_call0_v0) = _
  after_results
  rfl

/-- The region finds the second window's array at the negative images flattened. -/
theorem V_neg (c : Dev nD) :
    (V m c main_call0_v1 : S64x150528.Idx → Elt Ideal .f32)
      = shapeCast S64x150528 (m ((c : Thread nD τ).loc main_arg1)) shapeCasts_S64x3x224x224_S64x150528 := by
  show StableHlo.after hostOps0 (fun b => m (c, b)) (Proc.devRef .tc main_call0_v1) = _
  after_results
  rfl

/-- What the result buffer holds after the lines that follow the region. -/
theorem result_eq (c : Dev nD) :
    Pipeline.afterTail₀ cfgs (dats m) 0 (V0 m) [hostOps1] c main_v0
      = Cert.Loss.loss (norms (m ((c : Thread nD τ).loc main_arg0))) (norms (m ((c : Thread nD τ).loc main_arg1))) := by
  unfold Pipeline.afterTail₀
  show StableHlo.after hostOps1 _ (Proc.devRef .tc main_v0) = _
  rw [tail_eq]
  have h2 := (Pipeline.withArrays_arr spec0 launch0.win.arr_inj c (V0 m c) (fun w => (dats m 0 c).arrAt w (cfgs 0).N) 2).trans (Columns.final2 m c)
  have h3 := (Pipeline.withArrays_arr spec0 launch0.win.arr_inj c (V0 m c) (fun w => (dats m 0 c).arrAt w (cfgs 0).N) 3).trans (Columns.final3 m c)
  rw [V_pos] at h2
  rw [V_neg] at h3
  unfold norms
  exact congrArg₂ (fun a b => Cert.Loss.loss (shapeCast S64 a shapeCasts_S64x1_S64) (shapeCast S64 b shapeCasts_S64x1_S64)) h2 h3

/-- The frame run re-posted: the result at the loss of the kernel's norms of the launch contents, the arguments unchanged. -/
theorem run : θ_run defs (onTc (τ := τ) (main (F := Ideal))) ⟨m, fun _ => 0, ρ⟩ fun r => ∀ c : Dev nD,
      r.2.mem ((c.tc : Thread nD τ).loc main_v0)
          = Cert.Loss.loss (norms (m ((c.tc : Thread nD τ).loc main_arg0))) (norms (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Run

end
-- ==== Proof.RefRun.lean ====
/-
  The reference program's run, read back. Its @main is a straight line of 55 host operations once the three functions
  jax outlined (the standard deviation, the variance inside it, the `where` inside that) are written out where they are
  called, each over the buffers of its one call: the per-image norms of both inputs (square, sum over the three trailing
  axes, square root), then the operations of `Cert.Loss.loss` on them. Every weakly fair execution terminates with each
  buffer at the operations' fold over the launch contents; the result buffer is the loss of the two norm vectors, and the
  argument buffers are as launched.
-/
import proofs.«150675_j50087908606088_2_alg».proof.Proof.Gen.ReferenceIdeal
import proofs.«150675_j50087908606088_2_alg».proof.Proof.Loss
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls written out: the fourteen before the call of the standard deviation, its
    twenty-one (the variance's eighteen, the `where`'s two, the square root), the twenty after it. -/
abbrev ops : List (HloOp τ sig (Elt F)) :=
  [ binary main_arg0 main_arg0 main_v0 (mulf : (⟨S64x3x224x224, .f32⟩ : BufTy).Contents (Elt F) → (⟨S64x3x224x224, .f32⟩ : BufTy).Contents (Elt F) → (⟨S64x3x224x224, .f32⟩ : BufTy).Contents (Elt F)),
    nullary main_cst (constant S_ .f32 0x00000000#32),
    binary main_v0 main_cst main_v1 ((fun x v => Host.reduceAdd x v reducesTo_S64x3x224x224_S64_d1_2_3 h_S_) : (⟨S64x3x224x224, .f32⟩ : BufTy).Contents (Elt F) → (⟨S_, .f32⟩ : BufTy).Contents (Elt F) → (⟨S64, .f32⟩ : BufTy).Contents (Elt F)),
    unary main_v1 main_v2 (Host.sqrt : (⟨S64, .f32⟩ : BufTy).Contents (Elt F) → (⟨S64, .f32⟩ : BufTy).Contents (Elt F)),
    binary main_arg1 main_arg1 main_v3 (mulf : (⟨S64x3x224x224, .f32⟩ : BufTy).Contents (Elt F) → (⟨S64x3x224x224, .f32⟩ : BufTy).Contents (Elt F) → (⟨S64x3x224x224, .f32⟩ : BufTy).Contents (Elt F)),
    nullary main_cst_0 (constant S_ .f32 0x00000000#32),
    binary main_v3 main_cst_0 main_v4 ((fun x v => Host.reduceAdd x v reducesTo_S64x3x224x224_S64_d1_2_3 h_S_) : (⟨S64x3x224x224, .f32⟩ : BufTy).Contents (Elt F) → (⟨S_, .f32⟩ : BufTy).Contents (Elt F) → (⟨S64, .f32⟩ : BufTy).Contents (Elt F)),
    unary main_v4 main_v5 (Host.sqrt : (⟨S64, .f32⟩ : BufTy).Contents (Elt F) → (⟨S64, .f32⟩ : BufTy).Contents (Elt F)),
    binary main_v2 main_v5 main_v6 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    nullary main_cst_1 (constant S_ .f32 0x00000000#32),
    binary main_v6 main_cst_1 main_v7 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    nullary main_cst_2 (constant S_ .f32 0x43000000#32),
    binary main_v7 main_cst_2 main_v8 (Host.divf : (⟨S_, .f32⟩ : BufTy).Contents (Elt F) → (⟨S_, .f32⟩ : BufTy).Contents (Elt F) → (⟨S_, .f32⟩ : BufTy).Contents (Elt F)),
    nullary main_c (constantI S_ 32 0#32),
    TRef.nullary main_call0.call0.cst (constant S_ .f32 0x00000000#32),
    TRef.binary (.of main_v6 : TRef sig ⟨S128, .f32⟩) main_call0.call0.cst main_call0.call0.v0 (fun x v => Host.reduceAdd x v reducesTo_S128_S_d0 h_S_),
    TRef.unary main_call0.call0.v0 main_call0.call0.v1 (broadcastInDim S1 ![] bcast_S_S1),
    TRef.nullary main_call0.call0.cst_0 (constant S_ .f32 0x43000000#32),
    TRef.unary main_call0.call0.cst_0 main_call0.call0.v2 (broadcastInDim S1 ![] bcast_S_S1),
    TRef.binary main_call0.call0.v1 main_call0.call0.v2 main_call0.call0.v3 Host.divf,
    TRef.unary main_call0.call0.v3 main_call0.call0.v4 (broadcastInDim S128 ![0] bcast_S1_S128_0),
    TRef.binary (.of main_v6 : TRef sig ⟨S128, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x43000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S128_S_d0 h_S_),
    TRef.binary main_call0.call0.v9 main_call0.call0.v8 main_call0.call0.v10 Host.divf,
    TRef.nullary main_call0.call0.cst_3 (constant S_ .f32 0x00000000#32),
    TRef.binary main_call0.call0.v8 main_call0.call0.cst_3 main_call0.call0.v11 (cmpf .ogt),
    TRef.nullary main_call0.call0.cst_4 (constant S_ .f32 0x7FC00000#32),
    TRef.unary main_call0.call0.cst_4 main_call0.call0.call0.v0 id,
    TRef.ternary main_call0.call0.v11 main_call0.call0.v10 main_call0.call0.call0.v0 main_call0.call0.call0.v1 select,
    TRef.unary main_call0.call0.call0.v1 main_call0.v1 Host.sqrt,
    nullary main_cst_3 (constant S_ .f32 0x3F333333#32),
    binary main_v9 main_cst_3 main_v10 (mulf : (⟨S_, .f32⟩ : BufTy).Contents (Elt F) → (⟨S_, .f32⟩ : BufTy).Contents (Elt F) → (⟨S_, .f32⟩ : BufTy).Contents (Elt F)),
    unary main_v8 main_v11 (broadcastInDim S64 ![] bcast_S_S64 : (⟨S_, .f32⟩ : BufTy).Contents (Elt F) → (⟨S64, .f32⟩ : BufTy).Contents (Elt F)),
    binary main_v2 main_v11 main_v12 (subf : (⟨S64, .f32⟩ : BufTy).Contents (Elt F) → (⟨S64, .f32⟩ : BufTy).Contents (Elt F) → (⟨S64, .f32⟩ : BufTy).Contents (Elt F)),
    unary main_v10 main_v13 (broadcastInDim S64 ![] bcast_S_S64 : (⟨S_, .f32⟩ : BufTy).Contents (Elt F) → (⟨S64, .f32⟩ : BufTy).Contents (Elt F)),
    binary main_v12 main_v13 main_v14 (Host.divf : (⟨S64, .f32⟩ : BufTy).Contents (Elt F) → (⟨S64, .f32⟩ : BufTy).Contents (Elt F) → (⟨S64, .f32⟩ : BufTy).Contents (Elt F)),
    unary main_v14 main_v15 (Host.exp : (⟨S64, .f32⟩ : BufTy).Contents (Elt F) → (⟨S64, .f32⟩ : BufTy).Contents (Elt F)),
    nullary main_cst_4 (constant S_ .f32 0x00000000#32),
    binary main_v15 main_cst_4 main_v16 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    unary main_v8 main_v17 (broadcastInDim S64 ![] bcast_S_S64 : (⟨S_, .f32⟩ : BufTy).Contents (Elt F) → (⟨S64, .f32⟩ : BufTy).Contents (Elt F)),
    binary main_v5 main_v17 main_v18 (subf : (⟨S64, .f32⟩ : BufTy).Contents (Elt F) → (⟨S64, .f32⟩ : BufTy).Contents (Elt F) → (⟨S64, .f32⟩ : BufTy).Contents (Elt F)),
    unary main_v10 main_v19 (broadcastInDim S64 ![] bcast_S_S64 : (⟨S_, .f32⟩ : BufTy).Contents (Elt F) → (⟨S64, .f32⟩ : BufTy).Contents (Elt F)),
    binary main_v18 main_v19 main_v20 (Host.divf : (⟨S64, .f32⟩ : BufTy).Contents (Elt F) → (⟨S64, .f32⟩ : BufTy).Contents (Elt F) → (⟨S64, .f32⟩ : BufTy).Contents (Elt F)),
    unary main_v20 main_v21 (Host.exp : (⟨S64, .f32⟩ : BufTy).Contents (Elt F) → (⟨S64, .f32⟩ : BufTy).Contents (Elt F)),
    nullary main_cst_5 (constant S_ .f32 0x00000000#32),
    binary main_v21 main_cst_5 main_v22 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    binary main_v16 main_v22 main_v23 (addf : (⟨S_, .f32⟩ : BufTy).Contents (Elt F) → (⟨S_, .f32⟩ : BufTy).Contents (Elt F) → (⟨S_, .f32⟩ : BufTy).Contents (Elt F)),
    binary main_v16 main_v23 main_v24 (Host.divf : (⟨S_, .f32⟩ : BufTy).Contents (Elt F) → (⟨S_, .f32⟩ : BufTy).Contents (Elt F) → (⟨S_, .f32⟩ : BufTy).Contents (Elt F)),
    unary main_v24 main_v25 (Host.log : (⟨S_, .f32⟩ : BufTy).Contents (Elt F) → (⟨S_, .f32⟩ : BufTy).Contents (Elt F)),
    unary main_v25 main_v26 (Host.negf : (⟨S_, .f32⟩ : BufTy).Contents (Elt F) → (⟨S_, .f32⟩ : BufTy).Contents (Elt F)) ]

set_option maxRecDepth 2048 in
/-- @main is that straight line: the functions' bodies unfolded at their calls and sequencing reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., binary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., unary_bufs_sub .., nullary_bufs_sub .., binary_bufs_sub .., binary_bufs_sub .., binary_bufs_sub .., unary_bufs_sub .., unary_bufs_sub ..⟩

/-- Every weakly fair execution of @main terminates, and every buffer ends at the operations' fold over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The per-image norms as the reference computes them: the square root of the sum, over the three trailing axes, of the
    squares. -/
def norms (x : FVec F S64x3x224x224 .f32) : FVec F S64 .f32 :=
  Host.sqrt (Host.reduceAdd (mulf x x) (constant S_ .f32 0x00000000#32) reducesTo_S64x3x224x224_S64_d1_2_3 h_S_)

/-- The first eight operations: the two norm vectors. -/
abbrev normOps : List (HloOp τ sig (Elt F)) :=
  [ binary main_arg0 main_arg0 main_v0 (mulf : (⟨S64x3x224x224, .f32⟩ : BufTy).Contents (Elt F) → (⟨S64x3x224x224, .f32⟩ : BufTy).Contents (Elt F) → (⟨S64x3x224x224, .f32⟩ : BufTy).Contents (Elt F)),
    nullary main_cst (constant S_ .f32 0x00000000#32),
    binary main_v0 main_cst main_v1 ((fun x v => Host.reduceAdd x v reducesTo_S64x3x224x224_S64_d1_2_3 h_S_) : (⟨S64x3x224x224, .f32⟩ : BufTy).Contents (Elt F) → (⟨S_, .f32⟩ : BufTy).Contents (Elt F) → (⟨S64, .f32⟩ : BufTy).Contents (Elt F)),
    unary main_v1 main_v2 (Host.sqrt : (⟨S64, .f32⟩ : BufTy).Contents (Elt F) → (⟨S64, .f32⟩ : BufTy).Contents (Elt F)),
    binary main_arg1 main_arg1 main_v3 (mulf : (⟨S64x3x224x224, .f32⟩ : BufTy).Contents (Elt F) → (⟨S64x3x224x224, .f32⟩ : BufTy).Contents (Elt F) → (⟨S64x3x224x224, .f32⟩ : BufTy).Contents (Elt F)),
    nullary main_cst_0 (constant S_ .f32 0x00000000#32),
    binary main_v3 main_cst_0 main_v4 ((fun x v => Host.reduceAdd x v reducesTo_S64x3x224x224_S64_d1_2_3 h_S_) : (⟨S64x3x224x224, .f32⟩ : BufTy).Contents (Elt F) → (⟨S_, .f32⟩ : BufTy).Contents (Elt F) → (⟨S64, .f32⟩ : BufTy).Contents (Elt F)),
    unary main_v4 main_v5 (Host.sqrt : (⟨S64, .f32⟩ : BufTy).Contents (Elt F) → (⟨S64, .f32⟩ : BufTy).Contents (Elt F)) ]

/-- The other forty-seven: the loss of the two norm vectors, from the record that joins them on. -/
abbrev lossOps : List (HloOp τ sig (Elt F)) :=
  [ binary main_v2 main_v5 main_v6 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    nullary main_cst_1 (constant S_ .f32 0x00000000#32),
    binary main_v6 main_cst_1 main_v7 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    nullary main_cst_2 (constant S_ .f32 0x43000000#32),
    binary main_v7 main_cst_2 main_v8 (Host.divf : (⟨S_, .f32⟩ : BufTy).Contents (Elt F) → (⟨S_, .f32⟩ : BufTy).Contents (Elt F) → (⟨S_, .f32⟩ : BufTy).Contents (Elt F)),
    nullary main_c (constantI S_ 32 0#32),
    TRef.nullary main_call0.call0.cst (constant S_ .f32 0x00000000#32),
    TRef.binary (.of main_v6 : TRef sig ⟨S128, .f32⟩) main_call0.call0.cst main_call0.call0.v0 (fun x v => Host.reduceAdd x v reducesTo_S128_S_d0 h_S_),
    TRef.unary main_call0.call0.v0 main_call0.call0.v1 (broadcastInDim S1 ![] bcast_S_S1),
    TRef.nullary main_call0.call0.cst_0 (constant S_ .f32 0x43000000#32),
    TRef.unary main_call0.call0.cst_0 main_call0.call0.v2 (broadcastInDim S1 ![] bcast_S_S1),
    TRef.binary main_call0.call0.v1 main_call0.call0.v2 main_call0.call0.v3 Host.divf,
    TRef.unary main_call0.call0.v3 main_call0.call0.v4 (broadcastInDim S128 ![0] bcast_S1_S128_0),
    TRef.binary (.of main_v6 : TRef sig ⟨S128, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x43000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S128_S_d0 h_S_),
    TRef.binary main_call0.call0.v9 main_call0.call0.v8 main_call0.call0.v10 Host.divf,
    TRef.nullary main_call0.call0.cst_3 (constant S_ .f32 0x00000000#32),
    TRef.binary main_call0.call0.v8 main_call0.call0.cst_3 main_call0.call0.v11 (cmpf .ogt),
    TRef.nullary main_call0.call0.cst_4 (constant S_ .f32 0x7FC00000#32),
    TRef.unary main_call0.call0.cst_4 main_call0.call0.call0.v0 id,
    TRef.ternary main_call0.call0.v11 main_call0.call0.v10 main_call0.call0.call0.v0 main_call0.call0.call0.v1 select,
    TRef.unary main_call0.call0.call0.v1 main_call0.v1 Host.sqrt,
    nullary main_cst_3 (constant S_ .f32 0x3F333333#32),
    binary main_v9 main_cst_3 main_v10 (mulf : (⟨S_, .f32⟩ : BufTy).Contents (Elt F) → (⟨S_, .f32⟩ : BufTy).Contents (Elt F) → (⟨S_, .f32⟩ : BufTy).Contents (Elt F)),
    unary main_v8 main_v11 (broadcastInDim S64 ![] bcast_S_S64 : (⟨S_, .f32⟩ : BufTy).Contents (Elt F) → (⟨S64, .f32⟩ : BufTy).Contents (Elt F)),
    binary main_v2 main_v11 main_v12 (subf : (⟨S64, .f32⟩ : BufTy).Contents (Elt F) → (⟨S64, .f32⟩ : BufTy).Contents (Elt F) → (⟨S64, .f32⟩ : BufTy).Contents (Elt F)),
    unary main_v10 main_v13 (broadcastInDim S64 ![] bcast_S_S64 : (⟨S_, .f32⟩ : BufTy).Contents (Elt F) → (⟨S64, .f32⟩ : BufTy).Contents (Elt F)),
    binary main_v12 main_v13 main_v14 (Host.divf : (⟨S64, .f32⟩ : BufTy).Contents (Elt F) → (⟨S64, .f32⟩ : BufTy).Contents (Elt F) → (⟨S64, .f32⟩ : BufTy).Contents (Elt F)),
    unary main_v14 main_v15 (Host.exp : (⟨S64, .f32⟩ : BufTy).Contents (Elt F) → (⟨S64, .f32⟩ : BufTy).Contents (Elt F)),
    nullary main_cst_4 (constant S_ .f32 0x00000000#32),
    binary main_v15 main_cst_4 main_v16 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    unary main_v8 main_v17 (broadcastInDim S64 ![] bcast_S_S64 : (⟨S_, .f32⟩ : BufTy).Contents (Elt F) → (⟨S64, .f32⟩ : BufTy).Contents (Elt F)),
    binary main_v5 main_v17 main_v18 (subf : (⟨S64, .f32⟩ : BufTy).Contents (Elt F) → (⟨S64, .f32⟩ : BufTy).Contents (Elt F) → (⟨S64, .f32⟩ : BufTy).Contents (Elt F)),
    unary main_v10 main_v19 (broadcastInDim S64 ![] bcast_S_S64 : (⟨S_, .f32⟩ : BufTy).Contents (Elt F) → (⟨S64, .f32⟩ : BufTy).Contents (Elt F)),
    binary main_v18 main_v19 main_v20 (Host.divf : (⟨S64, .f32⟩ : BufTy).Contents (Elt F) → (⟨S64, .f32⟩ : BufTy).Contents (Elt F) → (⟨S64, .f32⟩ : BufTy).Contents (Elt F)),
    unary main_v20 main_v21 (Host.exp : (⟨S64, .f32⟩ : BufTy).Contents (Elt F) → (⟨S64, .f32⟩ : BufTy).Contents (Elt F)),
    nullary main_cst_5 (constant S_ .f32 0x00000000#32),
    binary main_v21 main_cst_5 main_v22 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    binary main_v16 main_v22 main_v23 (addf : (⟨S_, .f32⟩ : BufTy).Contents (Elt F) → (⟨S_, .f32⟩ : BufTy).Contents (Elt F) → (⟨S_, .f32⟩ : BufTy).Contents (Elt F)),
    binary main_v16 main_v23 main_v24 (Host.divf : (⟨S_, .f32⟩ : BufTy).Contents (Elt F) → (⟨S_, .f32⟩ : BufTy).Contents (Elt F) → (⟨S_, .f32⟩ : BufTy).Contents (Elt F)),
    unary main_v24 main_v25 (Host.log : (⟨S_, .f32⟩ : BufTy).Contents (Elt F) → (⟨S_, .f32⟩ : BufTy).Contents (Elt F)),
    unary main_v25 main_v26 (Host.negf : (⟨S_, .f32⟩ : BufTy).Contents (Elt F) → (⟨S_, .f32⟩ : BufTy).Contents (Elt F)) ]

theorem ops_split : (ops : List (HloOp τ sig (Elt F))) = normOps ++ lossOps := rfl

/-- After the first eight operations the two norm buffers hold the inputs' norms. -/
theorem pos_norms_eq (V : Valuation τ sig (Elt F)) :
    after normOps V (main_v2 : DevRef τ sig) = norms (V (main_arg0 : DevRef τ sig)) := by
  after_results_simp
  rfl
theorem neg_norms_eq (V : Valuation τ sig (Elt F)) :
    after normOps V (main_v5 : DevRef τ sig) = norms (V (main_arg1 : DevRef τ sig)) := by
  after_results_simp
  rfl

/-- The other operations leave the result buffer at the loss of whatever the two norm buffers hold. -/
theorem loss_eq (W : Valuation τ sig (Elt F)) :
    after lossOps W (main_v26 : DevRef τ sig)
      = Cert.Loss.loss (W (main_v2 : DevRef τ sig)) (W (main_v5 : DevRef τ sig)) := by
  after_results_simp
  rfl

/-- The result buffer after the line: the loss of the two inputs' norm vectors. -/
theorem out_eq (V : Valuation τ sig (Elt F)) :
    after ops V (main_v26 : DevRef τ sig)
      = Cert.Loss.loss (norms (V (main_arg0 : DevRef τ sig))) (norms (V (main_arg1 : DevRef τ sig))) := by
  rw [ops_split, after_append, loss_eq, pos_norms_eq, neg_norms_eq]

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp

/-- The run with its three buffers read: the result at the loss of the norms of the launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = Cert.Loss.loss (norms (m ((c.tc : Thread nD τ).loc main_arg0))) (norms (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v26).trans (out_eq _), (h c main_arg0).trans (arg0_eq _), (h c main_arg1).trans (arg1_eq _)⟩)
    (run_all m ρ)

end Cert.ReferenceIdeal.RefRun

end
-- ==== Proof.LibLeadingAxis.lean ====
/-
  A reshape that keeps the leading axis, and the sums over one leading coordinate.

  Two shapes `[a, d₁, …, dₙ]` and `[a, e₁, …, eₘ]` whose trailing axes hold the same number of elements are matched by
  row-major position, and a row-major position is `(leading coordinate) · (elements behind it) + (position behind it)` with
  the second summand below the number of elements behind it: so the match keeps the leading coordinate
  (`reshapeEquiv_leading_val`), and the entries of an array whose leading coordinate is `r` are, summed, the entries of
  the reshaped array whose leading coordinate is `r`, summed (`sum_leading_fiber_reshape`) — the sum is re-indexed, never
  re-associated with anything but itself, so it holds in any commutative monoid (the extended reals included).

  At the ideal values this joins a host `reduce add` over the three trailing axes of `[a, b, c, e]`
  (`hostReduceAdd_trailing3`: the initial value plus the sum over the leading coordinate's fiber) with a lane sum over the one
  trailing axis of the array viewed as `[a, n]`, `n = b·c·e` (`sum_row_eq_fiber`, `hostReduceAdd_trailing3_eq_row_sum`):
  what a kernel that flattens each sample to one row before summing it needs against a reference that sums over every
  trailing axis.
-/
import Idealize.ShloMosaic.Lib.ValueIdx
import Idealize.ShloMosaic.Lib.Pipeline.Value
import Idealize.ShloMosaic.PureOps.Ideal.Laws

namespace Idealize.ShloMosaic.ValueIdx

open Idealize.ShloMosaic

/-- A quotient is determined by a remainder below the divisor. -/
private theorem mul_add_div_self {N : ℕ} (q r : ℕ) (hr : r < N) : (q * N + r) / N = q := by
  have hN : 0 < N := by omega
  rw [Nat.add_comm, Nat.add_mul_div_right _ _ hN, Nat.div_eq_of_lt hr, Nat.zero_add]

/-- Two numbers written over one base with digits below it have the same leading digit. -/
private theorem leading_digit_unique {N N' q q' r r' : ℕ} (hN : N' = N) (hr : r < N) (hr' : r' < N')
    (e : q * N + r = q' * N' + r') : q = q' := by
  subst hN
  rw [← mul_add_div_self q r hr, e, mul_add_div_self q' r' hr']

/-- Two shapes with the same number of elements behind their leading axes: the multi-index matched with `p` by row-major
    position has `p`'s leading coordinate. -/
theorem reshapeEquiv_leading_val {n m : ℕ} {d : Fin (n + 1) → ℕ} {d' : Fin (m + 1) → ℕ}
    (h : (⟨m + 1, d'⟩ : Shape).numel = (⟨n + 1, d⟩ : Shape).numel)
    (ht : (⟨m, fun a => d' a.succ⟩ : Shape).numel = (⟨n, fun a => d a.succ⟩ : Shape).numel)
    (p : (⟨m + 1, d'⟩ : Shape).Idx) :
    (Shape.reshapeEquiv h p 0).val = (p 0).val := by
  have e := Shape.rowMajor_reshapeEquiv h p
  rw [Shape.rowMajor_val_succ, Shape.rowMajor_val_succ] at e
  exact leading_digit_unique ht
    ((⟨n, fun a => d a.succ⟩ : Shape).rowMajor fun a => Shape.reshapeEquiv h p a.succ).isLt
    ((⟨m, fun a => d' a.succ⟩ : Shape).rowMajor fun a => p a.succ).isLt e

/-- The entries whose leading coordinate is `r`, summed, are the reshaped array's entries whose leading coordinate is `r`,
    summed. -/
theorem sum_leading_fiber_reshape {M : Type*} [AddCommMonoid M] {n m : ℕ} {d : Fin (n + 1) → ℕ} {d' : Fin (m + 1) → ℕ}
    (h : (⟨m + 1, d'⟩ : Shape).numel = (⟨n + 1, d⟩ : Shape).numel)
    (ht : (⟨m, fun a => d' a.succ⟩ : Shape).numel = (⟨n, fun a => d a.succ⟩ : Shape).numel)
    (x : (⟨n + 1, d⟩ : Shape).Idx → M) (r : ℕ) :
    ∑ i ∈ Finset.univ.filter (fun i : (⟨n + 1, d⟩ : Shape).Idx => (i 0).val = r), x i
      = ∑ p ∈ Finset.univ.filter (fun p : (⟨m + 1, d'⟩ : Shape).Idx => (p 0).val = r), x (Shape.reshapeEquiv h p) :=
  (Finset.sum_equiv (Shape.reshapeEquiv h)
    (fun p => by
      simp only [Finset.mem_filter, Finset.mem_univ, true_and]
      rw [reshapeEquiv_leading_val h ht p])
    (fun _ _ => rfl)).symm

/-- Row `r` of a matrix, summed along the row, is the sum of the entries whose leading coordinate is `r`. -/
theorem sum_row_eq_fiber {M : Type*} [AddCommMonoid M] {a n : ℕ} (y : (⟨2, ![a, n]⟩ : Shape).Idx → M) (r : Fin a) :
    ∑ k : Fin n, y (ix2 r k)
      = ∑ p ∈ Finset.univ.filter (fun p : (⟨2, ![a, n]⟩ : Shape).Idx => (p 0).val = r.val), y p := by
  rw [Finset.sum_filter, sum_idx2]
  rw [Finset.sum_eq_single r]
  · exact Finset.sum_congr rfl fun k _ => (if_pos rfl).symm
  · intro b _ hb
    exact Finset.sum_eq_zero fun k _ => if_neg fun e => hb (Fin.ext e)
  · intro hr; exact absurd (Finset.mem_univ r) hr

/-- The host's float sum over the three trailing axes of `[a, b, c, e]`, read at `r` at the ideal values: the initial value
    plus the sum of the entries whose leading coordinate is `r`. -/
theorem hostReduceAdd_trailing3 {a b c e : ℕ}
    (hR : (⟨4, ![a, b, c, e]⟩ : Shape).ReducesTo [1, 2, 3] ⟨1, ![a]⟩)
    (x : (⟨4, ![a, b, c, e]⟩ : Shape).Idx → EReal) (init : EReal) (r : Fin a) :
    Ideal.hostReduceAdd hR x init (ix1 r)
      = init + ∑ i ∈ Finset.univ.filter (fun i : (⟨4, ![a, b, c, e]⟩ : Shape).Idx => (i 0).val = r.val), x i := by
  unfold Ideal.hostReduceAdd
  refine congrArg (init + ·) (Finset.sum_congr (Finset.filter_congr fun i _ => ?_) fun _ _ => rfl)
  have h0 : (hR.drop i 0 : ℕ) = (i 0).val := rfl
  constructor
  · intro hd
    rw [← h0, hd]
    rfl
  · intro hi
    funext bb
    match bb with
    | ⟨0, _⟩ => exact Fin.ext (h0.trans hi)

/-- So that sum is the initial value plus the lane sum of row `r` of the array viewed as `[a, n]` (its three trailing axes
    flattened into one of the same number of elements). -/
theorem hostReduceAdd_trailing3_eq_row_sum {a b c e n : ℕ}
    (hR : (⟨4, ![a, b, c, e]⟩ : Shape).ReducesTo [1, 2, 3] ⟨1, ![a]⟩)
    (hc : (⟨4, ![a, b, c, e]⟩ : Shape).ShapeCasts ⟨2, ![a, n]⟩)
    (ht : (⟨1, fun k => (![a, n] : Fin 2 → ℕ) k.succ⟩ : Shape).numel
      = (⟨3, fun k => (![a, b, c, e] : Fin 4 → ℕ) k.succ⟩ : Shape).numel)
    (x : (⟨4, ![a, b, c, e]⟩ : Shape).Idx → EReal) (init : EReal) (r : Fin a) :
    Ideal.hostReduceAdd hR x init (ix1 r)
      = init + ∑ k : Fin n, shapeCast ⟨2, ![a, n]⟩ x hc (ix2 r k) := by
  rw [hostReduceAdd_trailing3, sum_row_eq_fiber (shapeCast ⟨2, ![a, n]⟩ x hc) r]
  exact congrArg (init + ·) (sum_leading_fiber_reshape hc ht x r.val)

end Idealize.ShloMosaic.ValueIdx
-- ==== Proof.LibSqueeze.lean ====
/-
  A column squeezed to a vector, read at coordinates: an `[a, 1]` array cast to `[a]` reads, at `i`, the column at `(i, 0)`
  — what a kernel's `out[:, 0]` of a keepdims column is on the host. (The row form `[1, a] → [a]` is the library's
  `shapeCast_1a_a_apply`.)
-/
import Idealize.ShloMosaic.Lib.ValueIdx
import Idealize.ShloMosaic.Lib.Pipeline.Value

namespace Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.Bridge.lean ====
/-
  The two programs' per-image norms are one function of the input at the ideal values. For image `r` the reference takes
  `√(0 + ∑ x[r, c, h, w]²)` over the three trailing axes; the kernel program flattens the input to one row of 150528 entries per
  image — the same entries in row-major order, so the entries of image `r` are the entries of row `r` — and takes
  `√(∑ₖ row[r, k]²)`. The two sums run over the same entries (a sum re-indexed along the row-major matching, which keeps
  the leading coordinate), and the reference's initial value is the real number 0. No finiteness is used: re-indexing a
  sum holds for extended reals as they are.
-/
import proofs.«150675_j50087908606088_2_alg».proof.Proof.KernelRun
import proofs.«150675_j50087908606088_2_alg».proof.Proof.RefRun
import proofs.«150675_j50087908606088_2_alg».proof.Proof.LibLeadingAxis
import proofs.«150675_j50087908606088_2_alg».proof.Proof.LibSqueeze
import Idealize.ShloMosaic.Lib.IdealHost

noncomputable section

namespace Cert.Bridge

open Idealize.ShloMosaic Idealize.ShloMosaic.ValueIdx

/-- Behind the leading axis both layouts hold 150528 entries. -/
theorem tails_eq : (⟨1, fun k => (![64, 150528] : Fin 2 → ℕ) k.succ⟩ : Shape).numel
    = (⟨3, fun k => (![64, 3, 224, 224] : Fin 4 → ℕ) k.succ⟩ : Shape).numel := by decide

/-- The column of row norms at row `r`. -/
theorem rowNorms_apply (Y : Cert.KernelIdeal.S64x150528.Idx → Elt Ideal .f32) (r : Fin 64) :
    Cert.KernelIdeal.Columns.rowNorms Y (ix2 r (0 : Fin 1)) = Ideal.sqrt (∑ k : Fin 150528, Y (ix2 r k) * Y (ix2 r k)) := rfl

/-- The host's square root, entry by entry. -/
theorem hostSqrt_apply {s : Shape} (v : FVec Ideal s .f32) (i : s.Idx) : Host.sqrt v i = Ideal.sqrt (v i) := rfl

/-- The reference's norm of image `r`: the square root of the sum of the squares of row `r` of the flattened input. -/
theorem ref_norm_apply (x : FVec Ideal Cert.ReferenceIdeal.S64x3x224x224 .f32) (r : Fin 64) :
    Cert.ReferenceIdeal.RefRun.norms (F := Ideal) x (ix1 r)
      = Ideal.sqrt (∑ k : Fin 150528,
          shapeCast Cert.KernelIdeal.S64x150528 x Cert.KernelIdeal.Gen.shapeCasts_S64x3x224x224_S64x150528 (ix2 r k)
            * shapeCast Cert.KernelIdeal.S64x150528 x Cert.KernelIdeal.Gen.shapeCasts_S64x3x224x224_S64x150528 (ix2 r k)) := by
  unfold Cert.ReferenceIdeal.RefRun.norms
  refine (hostSqrt_apply _ (ix1 r)).trans (congrArg Ideal.sqrt ?_)
  refine (hostReduceAdd_apply (mulf x x) (constant Cert.ReferenceIdeal.S_ .f32 0x00000000#32)
    Cert.ReferenceIdeal.Gen.reducesTo_S64x3x224x224_S64_d1_2_3 Cert.ReferenceIdeal.Gen.h_S_ (ix1 r)).trans ?_
  refine (hostReduceAdd_trailing3_eq_row_sum Cert.ReferenceIdeal.Gen.reducesTo_S64x3x224x224_S64_d1_2_3
    Cert.KernelIdeal.Gen.shapeCasts_S64x3x224x224_S64x150528 tails_eq (mulf x x) _ r).trans ?_
  rw [constant_apply, Ideal.ofBits_zero_f32, zero_add]
  exact Finset.sum_congr rfl fun k _ => rfl

/-- The kernel program's norm vector is the reference's. -/
theorem norms_eq (x : FVec Ideal Cert.KernelIdeal.S64x3x224x224 .f32) :
    Cert.KernelIdeal.Run.norms x = Cert.ReferenceIdeal.RefRun.norms (F := Ideal) x := by
  funext i
  obtain ⟨r, rfl⟩ : ∃ r : Fin 64, i = ix1 r := ⟨i 0, eq_ix1 i⟩
  refine Eq.trans ?_ (ref_norm_apply x r).symm
  unfold Cert.KernelIdeal.Run.norms
  refine (shapeCast_a1_a_apply _ Cert.KernelIdeal.Gen.shapeCasts_S64x1_S64 r).trans ?_
  exact rowNorms_apply _ r

end Cert.Bridge

end
-- ==== Proof.lean ====
/-
  The InfoNCE-style loss of two batches of 64 images, kernel against reference, at the ideal values.

  Both programs reduce each image to its Euclidean norm `√(∑ x²)` over its `3 · 224 · 224 = 150528` entries, and then apply one
  and the same chain of host operations to the two vectors of 64 norms (`Cert.Loss.loss`: the record's mean and standard
  deviation, the two sums of exponentials of the standardised norms at temperature 0.7, minus the logarithm of the
  positive share). They differ only in how a norm is summed: the reference sums over the three trailing axes of
  `[64, 3, 224, 224]`; the kernel program first views the input as `[64, 150528]` (same entries, row-major order), and a
  Pallas kernel over four blocks of 16 rows sums each row along its lanes and stores the square root into a column.
  A sum re-indexed is the same sum — in the extended reals as anywhere, so the inputs' finiteness is never used — and
  the row-major matching keeps the image's number: `Cert.Bridge.norms_eq`.

  The three frames are the kernel programs' generated frame certificates and the reference's run with its result
  dropped; the idealization rewrote nothing, so `preserves` is trivial; `algebraic` puts the two runs side by side with
  both results stated as the loss of the norms.
-/
import proofs.«150675_j50087908606088_2_alg».proof.Defs
import proofs.«150675_j50087908606088_2_alg».proof.Proof.Gen.Kernel
import proofs.«150675_j50087908606088_2_alg».proof.Proof.Gen.Kernel.Frame
import proofs.«150675_j50087908606088_2_alg».proof.Proof.Gen.KernelIdeal
import proofs.«150675_j50087908606088_2_alg».proof.Proof.Gen.KernelIdeal.Frame
import proofs.«150675_j50087908606088_2_alg».proof.Proof.Gen.ReferenceIdeal
import proofs.«150675_j50087908606088_2_alg».proof.Proof.Gen.Pre_finite_inputs
import proofs.«150675_j50087908606088_2_alg».proof.Proof.KernelRun
import proofs.«150675_j50087908606088_2_alg».proof.Proof.RefRun
import proofs.«150675_j50087908606088_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation of the kernel. -/
theorem preserves : Cert.preserves_Kernel_KernelIdeal := trivial

/-- From memories that agree on the two inputs both programs end at the loss of the inputs' norm vectors; the kernel
    program's norms are the reference's. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.Bridge.norms_eq, Cert.Bridge.norms_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
